-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192 : Shape := ⟨1, ![8192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : IVec S8192 32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  main_v3
-- ==== Kernel.lean ====
abbrev S8192x64 : Shape := ⟨2, ![8192, 64]⟩
abbrev S8192 : Shape := ⟨1, ![8192]⟩
abbrev S_ : Shape := ⟨0, ![]⟩
abbrev S8192x1 : Shape := ⟨2, ![8192, 1]⟩
abbrev S8192x62 : Shape := ⟨2, ![8192, 62]⟩
abbrev S8192x128 : Shape := ⟨2, ![8192, 128]⟩
abbrev S1x8192 : Shape := ⟨2, ![1, 8192]⟩
abbrev S32x1x128 : Shape := ⟨3, ![32, 1, 128]⟩
abbrev S256x128 : Shape := ⟨2, ![256, 128]⟩
abbrev S256x1 : Shape := ⟨2, ![256, 1]⟩
abbrev S1x1x128 : Shape := ⟨3, ![1, 1, 128]⟩
abbrev S256x8192 : Shape := ⟨2, ![256, 8192]⟩
abbrev S1x64x128 : Shape := ⟨3, ![1, 64, 128]⟩
abbrev S1x128 : Shape := ⟨2, ![1, 128]⟩

abbrev nBuf : Space → Nat
  | .hbm => 22
  | .vmem => 8
  | .smem => 0
  | _ => 0

abbrev bufTy : (tb : Table) → Fin (tcTables nBuf tb) → BufTy
  | .hbm, ⟨0, _⟩ => ⟨S8192x64, .f32⟩
  | .hbm, ⟨1, _⟩ => ⟨S8192, .i32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S_, .f32⟩
  | .hbm, ⟨9, _⟩ => ⟨S8192x62, .f32⟩
  | .hbm, ⟨10, _⟩ => ⟨S_, .f32⟩
  | .hbm, ⟨11, _⟩ => ⟨S8192x64, .f32⟩
  | .hbm, ⟨12, _⟩ => ⟨S8192x64, .f32⟩
  | .hbm, ⟨13, _⟩ => ⟨S8192x128, .f32⟩
  | .hbm, ⟨14, _⟩ => ⟨S8192x128, .f32⟩
  | .hbm, ⟨15, _⟩ => ⟨S8192x1, .i32⟩
  | .hbm, ⟨16, _⟩ => ⟨S1x8192, .i32⟩
  | .hbm, ⟨17, _⟩ => ⟨S32x1x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S256x128, .f32⟩
  | .local _ .vmem, ⟨1, _⟩ => ⟨S256x128, .f32⟩
  | .local _ .vmem, ⟨2, _⟩ => ⟨S8192x128, .f32⟩
  | .local _ .vmem, ⟨3, _⟩ => ⟨S256x1, .i32⟩
  | .local _ .vmem, ⟨4, _⟩ => ⟨S256x1, .i32⟩
  | .local _ .vmem, ⟨5, _⟩ => ⟨S1x8192, .i32⟩
  | .local _ .vmem, ⟨6, _⟩ => ⟨S1x1x128, .f32⟩
  | .local _ .vmem, ⟨7, _⟩ => ⟨S1x1x128, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S_S8192x62 : S_.BroadcastsInDim S8192x62 (![] : Fin 0 → Fin S8192x62.rank)
  bcast_S_S8192x64 : S_.BroadcastsInDim S8192x64 (![] : Fin 0 → Fin S8192x64.rank)
  concatenates_S8192x64_S8192x1_S8192x1_S8192x62_S8192x128_d1 : Shape.Concatenates [S8192x64, S8192x1, S8192x1, S8192x62] S8192x128 1
  shapeCasts_S8192_S8192x1 : S8192.ShapeCasts S8192x1
  shapeCasts_S8192_S1x8192 : S8192.ShapeCasts S1x8192
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S256x1_S256x8192 : S256x1.Broadcasts S256x8192
  broadcasts_S1x8192_S256x8192 : S1x8192.Broadcasts S256x8192
  reduces_S256x8192_S8192 : S256x8192.Reduces [0] S8192
  shapeCasts_S1x8192_S1x64x128 : S1x8192.ShapeCasts S1x64x128
  reduces_S1x64x128_S1x128 : S1x64x128.Reduces [1] S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S32x1x128_S_d0_1_2 : S32x1x128.ReducesTo [0, 1, 2] S_
  dot_S256x128_S8192x128_S256x8192_1_1_0_0_n_n_wf : DotDims.WF S256x128 S8192x128 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .f32 = 32 ∨ (Rect.block (s := S8192x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S32x1x128.size a
  hwx0_4 : ∀ i : grid0.Coords, EltTy.bits .f32 = 32 ∨ (Rect.block (s := S32x1x128) S1x1x128.size (cc0_transform_4 i) (hinb0_4 i)).WholeWords (EltTy.packing .f32)

variable [Facts₀]

def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf

abbrev win0_0 : Pipeline.Window sig grid0 :=
  Pipeline.Window.ofSpec (Memref.whole main_v7) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 63
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192, .i32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S64x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x1, .i32⟩
  | .hbm, ⟨31, _⟩ => ⟨S1x8192, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S8192x8192, .i1⟩
  | .hbm, ⟨36, _⟩ => ⟨S8192x8192, .i1⟩
  | .hbm, ⟨37, _⟩ => ⟨S8192x1, .i32⟩
  | .hbm, ⟨38, _⟩ => ⟨S1x8192, .i32⟩
  | .hbm, ⟨39, _⟩ => ⟨S8192x8192, .i32⟩
  | .hbm, ⟨40, _⟩ => ⟨S8192x8192, .i32⟩
  | .hbm, ⟨41, _⟩ => ⟨S8192x8192, .i1⟩
  | .hbm, ⟨42, _⟩ => ⟨S8192x8192, .f32⟩
  | .hbm, ⟨43, _⟩ => ⟨S_, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_call1_v0 : Ref sig .tc := ⟨.hbm, 44, rfl⟩
abbrev main_call1_v1 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_call2_v0 : Ref sig .tc := ⟨.hbm, 55, rfl⟩
abbrev main_call2_v1 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KernelFrame.lean ====
/-
  The frame run of `Kernel`'s @main, at any float instance.

  @main is fifteen host operations, one launched region, four host operations.  The region's five windows stand on
  arrays the host operations before it wrote: the two augmented matrices [8192,128] (window 0 in row blocks of 256,
  window 1 whole), the labels as a column [8192,1] (window 2, in row blocks of 256) and as a row [1,8192] (window 3,
  whole), and the result [32,1,128] (window 4, one [1,1,128] block per grid point).  The body at a grid point loads its
  four input blocks whole, computes one [1,1,128] value from them and stores it over the whole output block; it also
  loads the output block once, a value it never uses.

  This module states what the output block holds after the body (`rowBlockSum`), runs the body once on buffers of
  arbitrary contents (`body_triple`), gives the launch its data (`dats`) and concludes: every weakly fair execution of
  @main terminates, the result array ends at the blocks the points wrote, every other buffer at what the last four host
  operations make of it (`run_main`), and the two argument arrays end as they began (`frame`).
-/
import proofs.«143186_g56977036148935_feedfinal_177_9_alg».proof.Proof.Gen.Kernel.Launch
import proofs.«143186_g56977036148935_feedfinal_177_9_alg».proof.Proof.Gen.Kernel.Skeleton
import proofs.«143186_g56977036148935_feedfinal_177_9_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The contents of core `c`'s buffers when the region is entered: the launch memory after the fifteen host
    operations before the region. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only arrays of the region and buffers it never sees. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes an array a window stands on: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, Finset.mem_singleton] <;> exact StableHlo.devRef_ne_of_ne (by decide)

/-- No operation before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No operation after the region writes the first argument, and no window stands on it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same of the second argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every point, whether the point fetches it or an
    earlier one did (its block index has not moved since), for any launch data whose array is the region-entry one
    and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds the window's block at every point, whether the point fetches it or an
    earlier one did (its block index has not moved since), for any launch data whose array is the region-entry one
    and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds the window's block at every point, whether the point fetches it or an
    earlier one did (its block index has not moved since), for any launch data whose array is the region-entry one
    and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds the window's block at every point, whether the point fetches it or an
    earlier one did (its block index has not moved since), for any launch data whose array is the region-entry one
    and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame from a frame run -/

/-- A run that ends with every buffer no window stands on at what the operations after the region make of it ends
    with both argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c)⟩) h

/-! ## The body's accesses -/

abbrev rA : Rect S256x128 := Rect.unit (s := S256x128) ![0, 0] S256x128.size inb_S256x128_S256x128_0_0
abbrev rB : Rect S8192x128 := Rect.unit (s := S8192x128) ![0, 0] S8192x128.size inb_S8192x128_S8192x128_0_0
abbrev rCol : Rect S256x1 := Rect.unit (s := S256x1) ![0, 0] S256x1.size inb_S256x1_S256x1_0_0
abbrev rRow : Rect S1x8192 := Rect.unit (s := S1x8192) ![0, 0] S1x8192.size inb_S1x8192_S1x8192_0_0
abbrev rOut : Rect S1x1x128 := Rect.unit (s := S1x1x128) ![0, 0, 0] S1x1x128.size inb_S1x1x128_S1x1x128_0_0_0

/-! ## What the body leaves in the output block -/

/-- The output block after the body, from the four input blocks: its one store, of the body's one computed value,
    over the whole block. -/
def rowBlockSum (x0 : Vec F S256x128 .f32) (x1 : Vec F S8192x128 .f32) (x2 : Vec F S256x1 .i32) (x3 : Vec F S1x8192 .i32) : Vec F S1x1x128 .f32 :=
  View.canon [⟨rOut, k0_pay1 (View.ld x0 rA) (View.ld x1 rB) (View.ld x2 rCol) (View.ld x3 rRow)⟩]

/-- The store's rectangle is the whole block. -/
theorem cover_out (p0 : Vec F S1x1x128 .f32) (y : S1x1x128.Idx) :
    ∃ pc ∈ ([⟨rOut, p0⟩] : List (View.Piece (Elt F) S1x1x128 .f32)), y ∈ pc.1.set :=
  View.cover_of_tiled [⟨rOut, p0⟩] S1x1x128.size (by rfl) y

/-! ## The body, run once -/

set_option maxHeartbeats 1000000 in
/-- The body on whole staging buffers — the inputs' at contents `x0 … x3`, the output's at anything — runs to its end
    with the inputs' as they were and the output's at `rowBlockSum` of them. -/
theorem body_triple (c : Dev nD) (E : Set ℕ) (i : grid0.Coords) (arg1 : Memref sig .tc .vmem S256x128 .f32) (harg1 : arg1.IsWhole) (arg2 : Memref sig .tc .vmem S8192x128 .f32) (harg2 : arg2.IsWhole) (arg3 : Memref sig .tc .vmem S256x1 .i32) (harg3 : arg3.IsWhole) (arg4 : Memref sig .tc .vmem S1x8192 .i32) (harg4 : arg4.IsWhole) (arg5 : Memref sig .tc .vmem S1x1x128 .f32) (harg5 : arg5.IsWhole)
    (x0 : Vec F S256x128 .f32) (x1 : Vec F S8192x128 .f32) (x2 : Vec F S256x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (rowBlockSum x0 x1 x2 x3)) -∗ K ⟨⟩))
      ⊢ wp frame (wpE (defs₀ (F := F)) Variants.none c none) E (cc0__loss_block_kernel i arg1 harg1 arg2 harg2 arg3 harg3 arg4 harg4 arg5 harg5) K := by
  simp only [cc0__loss_block_kernel_eq_skeleton]; unfold cc0__loss_block_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The launch's data -/

/-- The data of the one launch on core `c`: the windows' arrays as the region finds them; after the body at point `t`
    each input's buffer still at its block and the output's at `rowBlockSum` of the four input blocks; nothing else
    of the machine is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowBlockSum (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = rowBlockSum (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `body_triple` applies; the rest passes through
    untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates; at the end every window's
    array is what the launch's data say the points wrote back, and every other buffer is what the four operations
    after the region make of the region's result. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every weakly fair execution of @main terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Frame

end
-- ==== Proof.KernelIdealFrame.lean ====
/-
  The frame run of `KernelIdeal`'s @main, at any float instance.

  @main is fifteen host operations, one launched region, four host operations.  The region's five windows stand on
  arrays the host operations before it wrote: the two augmented matrices [8192,128] (window 0 in row blocks of 256,
  window 1 whole), the labels as a column [8192,1] (window 2, in row blocks of 256) and as a row [1,8192] (window 3,
  whole), and the result [32,1,128] (window 4, one [1,1,128] block per grid point).  The body at a grid point loads its
  four input blocks whole, computes one [1,1,128] value from them and stores it over the whole output block; it also
  loads the output block once, a value it never uses.

  This module states what the output block holds after the body (`rowBlockSum`), runs the body once on buffers of
  arbitrary contents (`body_triple`), gives the launch its data (`dats`) and concludes: every weakly fair execution of
  @main terminates, the result array ends at the blocks the points wrote, every other buffer at what the last four host
  operations make of it (`run_main`), and the two argument arrays end as they began (`frame`).
-/
import proofs.«143186_g56977036148935_feedfinal_177_9_alg».proof.Proof.Gen.KernelIdeal.Launch
import proofs.«143186_g56977036148935_feedfinal_177_9_alg».proof.Proof.Gen.KernelIdeal.Skeleton
import proofs.«143186_g56977036148935_feedfinal_177_9_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The contents of core `c`'s buffers when the region is entered: the launch memory after the fifteen host
    operations before the region. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only arrays of the region and buffers it never sees. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes an array a window stands on: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, Finset.mem_singleton] <;> exact StableHlo.devRef_ne_of_ne (by decide)

/-- No operation before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No operation after the region writes the first argument, and no window stands on it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same of the second argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every point, whether the point fetches it or an
    earlier one did (its block index has not moved since), for any launch data whose array is the region-entry one
    and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds the window's block at every point, whether the point fetches it or an
    earlier one did (its block index has not moved since), for any launch data whose array is the region-entry one
    and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds the window's block at every point, whether the point fetches it or an
    earlier one did (its block index has not moved since), for any launch data whose array is the region-entry one
    and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds the window's block at every point, whether the point fetches it or an
    earlier one did (its block index has not moved since), for any launch data whose array is the region-entry one
    and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame from a frame run -/

/-- A run that ends with every buffer no window stands on at what the operations after the region make of it ends
    with both argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c)⟩) h

/-! ## The body's accesses -/

abbrev rA : Rect S256x128 := Rect.unit (s := S256x128) ![0, 0] S256x128.size inb_S256x128_S256x128_0_0
abbrev rB : Rect S8192x128 := Rect.unit (s := S8192x128) ![0, 0] S8192x128.size inb_S8192x128_S8192x128_0_0
abbrev rCol : Rect S256x1 := Rect.unit (s := S256x1) ![0, 0] S256x1.size inb_S256x1_S256x1_0_0
abbrev rRow : Rect S1x8192 := Rect.unit (s := S1x8192) ![0, 0] S1x8192.size inb_S1x8192_S1x8192_0_0
abbrev rOut : Rect S1x1x128 := Rect.unit (s := S1x1x128) ![0, 0, 0] S1x1x128.size inb_S1x1x128_S1x1x128_0_0_0

/-! ## What the body leaves in the output block -/

/-- The output block after the body, from the four input blocks: its one store, of the body's one computed value,
    over the whole block. -/
def rowBlockSum (x0 : Vec F S256x128 .f32) (x1 : Vec F S8192x128 .f32) (x2 : Vec F S256x1 .i32) (x3 : Vec F S1x8192 .i32) : Vec F S1x1x128 .f32 :=
  View.canon [⟨rOut, k0_pay1 (View.ld x0 rA) (View.ld x1 rB) (View.ld x2 rCol) (View.ld x3 rRow)⟩]

/-- The store's rectangle is the whole block. -/
theorem cover_out (p0 : Vec F S1x1x128 .f32) (y : S1x1x128.Idx) :
    ∃ pc ∈ ([⟨rOut, p0⟩] : List (View.Piece (Elt F) S1x1x128 .f32)), y ∈ pc.1.set :=
  View.cover_of_tiled [⟨rOut, p0⟩] S1x1x128.size (by rfl) y

/-! ## The body, run once -/

set_option maxHeartbeats 1000000 in
/-- The body on whole staging buffers — the inputs' at contents `x0 … x3`, the output's at anything — runs to its end
    with the inputs' as they were and the output's at `rowBlockSum` of them. -/
theorem body_triple (c : Dev nD) (E : Set ℕ) (i : grid0.Coords) (arg1 : Memref sig .tc .vmem S256x128 .f32) (harg1 : arg1.IsWhole) (arg2 : Memref sig .tc .vmem S8192x128 .f32) (harg2 : arg2.IsWhole) (arg3 : Memref sig .tc .vmem S256x1 .i32) (harg3 : arg3.IsWhole) (arg4 : Memref sig .tc .vmem S1x8192 .i32) (harg4 : arg4.IsWhole) (arg5 : Memref sig .tc .vmem S1x1x128 .f32) (harg5 : arg5.IsWhole)
    (x0 : Vec F S256x128 .f32) (x1 : Vec F S8192x128 .f32) (x2 : Vec F S256x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (rowBlockSum x0 x1 x2 x3)) -∗ K ⟨⟩))
      ⊢ wp frame (wpE (defs₀ (F := F)) Variants.none c none) E (cc0__loss_block_kernel i arg1 harg1 arg2 harg2 arg3 harg3 arg4 harg4 arg5 harg5) K := by
  simp only [cc0__loss_block_kernel_eq_skeleton]; unfold cc0__loss_block_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The launch's data -/

/-- The data of the one launch on core `c`: the windows' arrays as the region finds them; after the body at point `t`
    each input's buffer still at its block and the output's at `rowBlockSum` of the four input blocks; nothing else
    of the machine is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowBlockSum (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = rowBlockSum (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `body_triple` applies; the rest passes through
    untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates; at the end every window's
    array is what the launch's data say the points wrote back, and every other buffer is what the four operations
    after the region make of the region's result. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every weakly fair execution of @main terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Frame

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.LibMatmulRows.lean ====
/-
  A matrix product that contracts the two operands' LAST axes, read at one entry.

  For dimension numbers that contract the left operand's second axis with the right operand's second axis — the
  left operand [a, n], the right operand [b, n], the result [a, b], no batch axes: `x @ W.T` without the transpose
  ever being formed — the entry (p, q) of the product is the sum over k of left (p, k) times right (q, k): row p of
  the left operand against row q of the right one. The dimension numbers enter only through four facts about where
  the two operand indices sit (the left one reads the result's row and the contraction position, the right one the
  result's column and the contraction position); a caller proves those four facts for its own record, each by
  unfolding the record's two membership tests.

  `contr_sum_rows`     the contraction's sum re-indexed by the one contracted coordinate;
  `matmul_zero_rows`   a `tpu.matmul` into the zero accumulator at the ideal instance;
  `dotGeneral_rows`    the host's `dot_general` at the ideal instance.
-/
import Idealize.ShloMosaic.PureOps.Ideal.Laws
import Idealize.ShloMosaic.Lib.ValueIdx

noncomputable section

open scoped BigOperators

namespace Idealize.ShloMosaic.MatmulRows

open Idealize.ShloMosaic Idealize.ShloMosaic.ValueIdx

variable {a n b : ℕ}

/-- The sum over the contraction positions of a one-axis contraction of the operands' last axes is the sum over the
    contracted coordinate `k : Fin n`, the left operand read at `(p, k)` and the right one at `(q, k)`. -/
theorem contr_sum_rows (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (l : (⟨2, ![a, n]⟩ : Shape).Idx → EReal) (r : (⟨2, ![b, n]⟩ : Shape).Idx → EReal) (p : Fin a) (q : Fin b) :
    ∑ c : D.contr.Idx, l (D.lhsIdx (ix2 p q) c) * r (D.rhsIdx (ix2 p q) c) = ∑ k : Fin n, l (ix2 p k) * r (ix2 q k) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 q k := funext fun ax => Fin.ext (by
    match ax with
    | ⟨0, _⟩ => exact hr0 _ _
    | ⟨1, _⟩ => exact (hr1 _ _).trans hk)
  rw [el, er]

/-- A `tpu.matmul` of an [a, n] by a [b, n] operand into the zero accumulator, at the ideal instance, read at
    `(p, q)`: the sum over `k` of left `(p, k)` times right `(q, k)`. -/
theorem matmul_zero_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    matmul D prec l r (constant ⟨2, ![a, b]⟩ .f32 0x00000000#32) (ix2 p q) = ∑ k : Fin n, l (ix2 p k) * r (ix2 q k) :=
  (Ideal.matmul_constant_zero_apply D prec l r (ix2 p q)).trans (contr_sum_rows D hr hs hl0 hl1 hr0 hr1 l r p q)

/-- The host's `dot_general` of an [a, n] by a [b, n] operand, at the ideal instance, read at `(p, q)`: the same sum. -/
theorem dotGeneral_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    Host.dotGeneral D prec l r (ix2 p q) = ∑ k : Fin n, l (ix2 p k) * r (ix2 q k) :=
  (Ideal.dotGeneral_apply D prec .single l r (ix2 p q)).trans (contr_sum_rows D hr hs hl0 hl1 hr0 hr1 l r p q)

end Idealize.ShloMosaic.MatmulRows

end
-- ==== Proof.PairTerm.lean ====
/-
  The arithmetic of one pair of rows, over the reals and the extended reals; no program is mentioned.

  For two rows u, v of 64 reals, the squared distance |u|² + |v|² − 2 u·v is computed two ways.  One way forms the
  rows' 128-wide augmentations  (−2u, |u|², 1, 0, …, 0)  and  (v, 1, |v|², 0, …, 0)  and takes their inner product
  (`aug_dot`); the other adds the two squared norms and subtracts twice the inner product.  A row against itself gives
  zero (`sqDist_self`).

  From a squared distance d and two bits — do the labels agree, is the pair on the diagonal — the loss adds one term per
  pair.  Read one way it is  max d 0  for agreeing labels and  (max (1 − √(max d 0)) 0)²  otherwise, the diagonal not
  singled out; read the other way it is  [agree, off the diagonal] (√w)² + [disagree] (max (1 − √w) 0)²  with
  w = max d 0 off the diagonal and w = 1 on it.  The two readings are one value whenever a diagonal pair has agreeing
  labels and squared distance zero (`pair_terms_agree`): off the diagonal (√w)² = w because w ≥ 0, and on it both are 0.
-/
import Mathlib
import Idealize.ShloMosaic.PureOps.Ideal

noncomputable section

open scoped BigOperators

namespace Cert.PairTerm

open Idealize.ShloMosaic

/-! ## Sums of reals inside the extended reals -/

/-- The inclusion of the reals in the extended reals commutes with finite sums. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ## The augmented rows -/

/-- Row `u` augmented on the left-hand side: −2u, then |u|², then 1, then zeros. -/
def augRowL (u : Fin 64 → ℝ) (k : Fin 128) : ℝ :=
  if h : k.val < 64 then -2 * u ⟨k.val, h⟩ else if k.val = 64 then ∑ t, u t * u t else if k.val = 65 then 1 else 0

/-- Row `v` augmented on the right-hand side: v, then 1, then |v|², then zeros. -/
def augRowR (v : Fin 64 → ℝ) (k : Fin 128) : ℝ :=
  if h : k.val < 64 then v ⟨k.val, h⟩ else if k.val = 64 then 1 else if k.val = 65 then ∑ t, v t * v t else 0

/-- The squared distance of two rows. -/
def sqDist (u v : Fin 64 → ℝ) : ℝ := (∑ t, u t * u t) + (∑ t, v t * v t) - 2 * ∑ t, u t * v t

theorem sqDist_self (u : Fin 64 → ℝ) : sqDist u u = 0 := by unfold sqDist; ring

/-- The inner product of the two augmented rows is the squared distance: the first 64 positions give −2 u·v, position
    64 gives |u|² · 1, position 65 gives 1 · |v|², the rest nothing. -/
theorem aug_dot (u v : Fin 64 → ℝ) : ∑ k : Fin 128, augRowL u k * augRowR v k = sqDist u v := by
  have e1 : ∀ t : Fin 64, augRowL u (Fin.castAdd 64 t) * augRowR v (Fin.castAdd 64 t) = -2 * (u t * v t) := by
    intro t
    have ht : (Fin.castAdd 64 t).val < 64 := t.isLt
    unfold augRowL augRowR
    rw [dif_pos ht, dif_pos ht]
    show -2 * u t * v t = _
    ring
  have e2 : ∀ t : Fin 64, augRowL u (Fin.natAdd 64 t) * augRowR v (Fin.natAdd 64 t)
      = if t = 0 then ∑ s, u s * u s else if t = 1 then ∑ s, v s * v s else 0 := by
    intro t
    have hv : (Fin.natAdd 64 t).val = 64 + t.val := rfl
    have ht : ¬ (Fin.natAdd 64 t).val < 64 := by rw [hv]; omega
    unfold augRowL augRowR
    rw [dif_neg ht, dif_neg ht, hv]
    by_cases h0 : t = 0
    · subst h0; simp
    · by_cases h1 : t = 1
      · subst h1; simp
      · have a0 : t.val ≠ 0 := fun h => h0 (Fin.ext h)
        have a1 : t.val ≠ 1 := fun h => h1 (Fin.ext h)
        have a : ¬ (64 + t.val = 64) := by omega
        have b : ¬ (64 + t.val = 65) := by omega
        rw [if_neg a, if_neg b, if_neg a, if_neg b, if_neg h0, if_neg h1]; ring
  have hsplit := Fin.sum_univ_add (fun k : Fin (64 + 64) => augRowL u k * augRowR v k)
  have htail : (∑ t : Fin 64, if t = 0 then ∑ s, u s * u s else if t = 1 then ∑ s, v s * v s else (0 : ℝ))
      = (∑ s, u s * u s) + ∑ s, v s * v s := by
    rw [Finset.sum_eq_add (0 : Fin 64) 1 (by decide)]
    · simp
    · intro c _ hc; rw [if_neg hc.1, if_neg hc.2]
    · intro h; exact absurd (Finset.mem_univ _) h
    · intro h; exact absurd (Finset.mem_univ _) h
  calc ∑ k : Fin 128, augRowL u k * augRowR v k
      = (∑ t : Fin 64, augRowL u (Fin.castAdd 64 t) * augRowR v (Fin.castAdd 64 t))
          + ∑ t : Fin 64, augRowL u (Fin.natAdd 64 t) * augRowR v (Fin.natAdd 64 t) := hsplit
    _ = (∑ t : Fin 64, -2 * (u t * v t)) + ((∑ s, u s * u s) + ∑ s, v s * v s) := by
        rw [Finset.sum_congr rfl (fun t _ => e1 t), Finset.sum_congr rfl (fun t _ => e2 t), htail]
    _ = sqDist u v := by unfold sqDist; rw [← Finset.mul_sum]; ring

/-! ## One pair's term of the loss, read two ways -/

/-- The square root of a nonnegative real, squared, inside the extended reals. -/
theorem sqrt_mul_self (r : ℝ) (hr : 0 ≤ r) : Ideal.sqrt (r : EReal) * Ideal.sqrt (r : EReal) = (r : EReal) := by
  rw [Ideal.sqrt_coe, if_neg (not_lt.mpr hr), ← EReal.coe_mul, Real.mul_self_sqrt hr]

/-- One pair's term with the diagonal not singled out: `max d 0` where the labels agree, the squared hinge
    `(max (one − √(max d 0)) 0)²` where they do not. -/
def fusedTerm (agree : BitVec 1) (one d : EReal) : EReal :=
  Scalar.select agree (max d 0) (max (one - Ideal.sqrt (max d 0)) 0 * max (one - Ideal.sqrt (max d 0)) 0)

/-- One pair's term with the diagonal masked: with `w` the clamped squared distance off the diagonal and `one` on it,
    `(√w)²` for agreeing labels off the diagonal (the bit `pos`), plus the squared hinge of `√w` for disagreeing labels (the
    bit `neg`); a masked-out part is `0`. -/
def maskedTerm (diag pos neg : BitVec 1) (one d : EReal) : EReal :=
  Scalar.select pos (Ideal.sqrt (Scalar.select diag one (max d 0)) * Ideal.sqrt (Scalar.select diag one (max d 0))) 0
    + Scalar.select neg (max (one - Ideal.sqrt (Scalar.select diag one (max d 0))) 0
        * max (one - Ideal.sqrt (Scalar.select diag one (max d 0))) 0) 0

/-- The two readings agree at a real squared distance `r`, given how the bits hang together: off the diagonal `pos`
    is `agree` and `neg` its complement; on the diagonal the labels agree, `pos` and `neg` are both off, and `r = 0`. -/
theorem pair_terms_agree (agree diag pos neg : BitVec 1) (one : EReal) (r : ℝ)
    (hoff : diag ≠ (1 : BitVec 1) → pos = agree ∧ (neg = (1 : BitVec 1) ↔ agree ≠ (1 : BitVec 1)))
    (hon : diag = (1 : BitVec 1) → agree = (1 : BitVec 1) ∧ pos ≠ (1 : BitVec 1) ∧ neg ≠ (1 : BitVec 1) ∧ r = 0) :
    fusedTerm agree one (r : EReal) = maskedTerm diag pos neg one (r : EReal) := by
  unfold fusedTerm maskedTerm Scalar.select
  by_cases hd : diag = (1 : BitVec 1)
  · obtain ⟨ha, hp, hn, hr⟩ := hon hd
    subst hr
    rw [if_pos ha, if_neg hp, if_neg hn]
    simp
  · obtain ⟨hp, hn⟩ := hoff hd
    subst hp
    rw [if_neg hd]
    have hmax : max (r : EReal) 0 = ((max r 0 : ℝ) : EReal) := by
      rw [← EReal.coe_zero]; exact (EReal.coe_strictMono.monotone.map_max).symm
    by_cases ha : pos = (1 : BitVec 1)
    · have hn' : ¬ neg = (1 : BitVec 1) := fun h => (hn.mp h) ha
      rw [if_pos ha, if_pos ha, if_neg hn', add_zero, hmax, sqrt_mul_self _ (le_max_right _ _)]
    · have hn' : neg = (1 : BitVec 1) := hn.mpr ha
      rw [if_neg ha, if_neg ha, if_pos hn', zero_add]

end Cert.PairTerm

end
-- ==== Proof.KernelTile.lean ====
/-
  The body's one computed value, read at an index, at the ideal instance.

  From a [256,128] block x0 of the left augmented matrix, the whole right augmented matrix x1 [8192,128], a [256,1]
  block x2 of the labels and the whole row x3 [1,8192] of the labels, the body forms the [256,8192] tile whose entry
  (p, q) is the pair term of row p of the block against row q of the matrix — from the inner product of the two
  augmented rows and the comparison of the two labels — and adds the tile up: first down its 256 rows, then the
  8192 column sums in 64 groups of 128, column 128·k + l into lane l.  So lane l of the [1,1,128] result is the sum
  over k < 64 and p < 256 of the tile's entry (p, 128·k + l).
-/
import proofs.«143186_g56977036148935_feedfinal_177_9_alg».proof.Proof.Gen.KernelIdeal.Skeleton
import proofs.«143186_g56977036148935_feedfinal_177_9_alg».proof.Proof.LibColBroadcast
import proofs.«143186_g56977036148935_feedfinal_177_9_alg».proof.Proof.LibMatmulRows
import proofs.«143186_g56977036148935_feedfinal_177_9_alg».proof.Proof.PairTerm
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Tile

open Idealize.ShloMosaic Idealize.ShloMosaic.ValueIdx
open Cert.KernelIdeal Cert.KernelIdeal.Gen Cert.PairTerm

/-! ## The matrix product's operand indices -/

abbrev D := dot_S256x128_S8192x128_S256x8192_1_1_0_0_n_n

theorem D_l0 (i : S256x8192.Idx) (q : D.contr.Idx) : (D.lhsIdx i q 0).val = (i 0).val := by
  unfold DotDims.lhsIdx
  rw [dif_neg (show ¬(0 : Fin S256x128.rank) ∈ D.lhsBatch by decide), dif_pos (show (0 : Fin S256x128.rank) ∈ D.lhsNonContracting by decide)]
  rfl
theorem D_l1 (i : S256x8192.Idx) (q : D.contr.Idx) : (D.lhsIdx i q 1).val = (q ⟨0, by decide⟩).val :=
  D.lhsIdx_val_of_single rfl i q
theorem D_r0 (i : S256x8192.Idx) (q : D.contr.Idx) : (D.rhsIdx i q 0).val = (i 1).val := by
  unfold DotDims.rhsIdx
  rw [dif_neg (show ¬(0 : Fin S8192x128.rank) ∈ D.rhsBatch by decide), dif_pos (show (0 : Fin S8192x128.rank) ∈ D.rhsNonContracting by decide)]
  rfl
theorem D_r1 (i : S256x8192.Idx) (q : D.contr.Idx) : (D.rhsIdx i q 1).val = (q ⟨0, by decide⟩).val :=
  D.rhsIdx_val_of_single rfl i q

/-- The product of the block with the matrix, rows against rows, at (p, q): the inner product of row p of the block
    and row q of the matrix. -/
theorem product_at (a : FVec Ideal S256x128 .f32) (b : FVec Ideal S8192x128 .f32) (p : Fin 256) (q : Fin 8192) :
    matmul D none a b (constant S256x8192 .f32 0x00000000#32) (ix2 p q) = ∑ j : Fin 128, a (ix2 p j) * b (ix2 q j) :=
  MatmulRows.matmul_zero_rows (a := 256) (n := 128) (b := 8192) D rfl rfl D_l0 D_l1 D_r0 D_r1 none a b p q

/-! ## The two sums -/

/-- Column `128·k + l` of 8192, for `k < 64` and `l < 128`. -/
def col (k l : ℕ) : Fin 8192 := ⟨(l + 128 * k) % 8192, Nat.mod_lt _ (by decide)⟩

theorem col_val (k l : ℕ) (hk : k < 64) (hl : l < 128) : (col k l).val = l + 128 * k := by
  show (l + 128 * k) % 8192 = _
  omega

/-- A [256,8192] tile summed down its rows, the column sums regrouped as [1,64,128] and summed over the middle axis,
    read at lane `l`: the sum over k < 64 and p < 256 of the tile at (p, 128·k + l). -/
theorem lanes_at (T : FVec Ideal S256x8192 .f32) (l : Fin 128) :
    shapeCast S1x1x128
        (multiReduction .add [1] S1x128
          (shapeCast S1x64x128
            (shapeCast S1x8192 (multiReduction .add [0] S8192 T 0x00000000#32 reduces_S256x8192_S8192 (.inl rfl) rfl) shapeCasts_S8192_S1x8192)
            shapeCasts_S1x8192_S1x64x128)
          0x00000000#32 reduces_S1x64x128_S1x128 (.inl rfl) rfl)
        shapeCasts_S1x128_S1x1x128 (ix3 (0 : Fin 1) (0 : Fin 1) l)
      = ∑ k : Fin 64, ∑ p : Fin 256, T (ix2 p (col k.val l.val)) := by
  refine (shapeCast_apply _ _ (ix3 (0 : Fin 1) (0 : Fin 1) l) (ix2 (0 : Fin 1) l) ?_).trans ?_
  · rw [Shape.rowMajor_val_two, Shape.rowMajor_val_three]; rfl
  refine (Ideal.multiReduction_add_single _ _ reduces_S1x64x128_S1x128 (.inl rfl) rfl (ix2 (0 : Fin 1) l)).trans ?_
  refine Finset.sum_congr rfl fun k _ => ?_
  refine (shapeCast_apply _ _ _ (ix2 (0 : Fin 1) (col k.val l.val)) ?_).trans ?_
  · rw [Shape.rowMajor_val_two, Shape.rowMajor_val_three]
    have hk : k.val < 64 := k.isLt
    have hl : l.val < 128 := l.isLt
    show 0 * 8192 + (col k.val l.val).val = (0 * 64 + k.val) * 128 + l.val
    rw [col_val k.val l.val hk hl]
    omega
  refine (shapeCast_a_1a_apply _ _ (0 : Fin 1) (col k.val l.val)).trans ?_
  refine (Ideal.multiReduction_add_single _ _ reduces_S256x8192_S8192 (.inl rfl) rfl (ix1 (col k.val l.val))).trans ?_
  refine Finset.sum_congr rfl fun p _ => ?_
  exact congrArg T (funext fun a => Fin.ext (by match a with | ⟨0, _⟩ => rfl | ⟨1, _⟩ => rfl))

/-! ## The value -/

/-- Lane `l` of the body's value: the sum over k < 64 and p < 256 of the pair term of row p of the block against row
    128·k + l of the matrix. -/
theorem pay_at (x0 : FVec Ideal S256x128 .f32) (x1 : FVec Ideal S8192x128 .f32) (x2 : IVec S256x1 32) (x3 : IVec S1x8192 32) (l : Fin 128) :
    k0_pay1 (F := Ideal) x0 x1 x2 x3 (ix3 (0 : Fin 1) (0 : Fin 1) l)
      = ∑ k : Fin 64, ∑ p : Fin 256,
          fusedTerm (IntOp.cmpi .eq (x2 (ix2 p (0 : Fin 1))) (x3 (ix2 (0 : Fin 1) (col k.val l.val)))) (Ideal.ofBits .f32 0x3F800000#32)
            (∑ j : Fin 128, x0 (ix2 p j) * x1 (ix2 (col k.val l.val) j)) := by
  unfold k0_pay1
  dsimp only
  refine (lanes_at _ l).trans ?_
  refine Finset.sum_congr rfl fun k _ => Finset.sum_congr rfl fun p _ => ?_
  have hprod := product_at (shapeCast S256x128 x0 shapeCasts_S256x128_S256x128) (shapeCast S8192x128 x1 shapeCasts_S8192x128_S8192x128) p (col k.val l.val)
  have hcol := LibColBroadcast.broadcastTo_a1_ab_apply (shapeCast S256x1 x2 shapeCasts_S256x1_S256x1) broadcasts_S256x1_S256x8192 p (col k.val l.val)
  have hrow := broadcastTo_1b_ab_apply (shapeCast S1x8192 x3 shapeCasts_S1x8192_S1x8192) broadcasts_S1x8192_S256x8192 p (col k.val l.val)
  show Scalar.select (IntOp.cmpi .eq (broadcastTo S256x8192 (shapeCast S256x1 x2 shapeCasts_S256x1_S256x1) broadcasts_S256x1_S256x8192 (ix2 p (col k.val l.val)))
        (broadcastTo S256x8192 (shapeCast S1x8192 x3 shapeCasts_S1x8192_S1x8192) broadcasts_S1x8192_S256x8192 (ix2 p (col k.val l.val))))
      (max (matmul D none (shapeCast S256x128 x0 shapeCasts_S256x128_S256x128) (shapeCast S8192x128 x1 shapeCasts_S8192x128_S8192x128) (constant S256x8192 .f32 0x00000000#32) (ix2 p (col k.val l.val))) (Ideal.ofBits .f32 0x00000000#32))
      (max (Ideal.ofBits .f32 0x3F800000#32 - Ideal.sqrt (max (matmul D none (shapeCast S256x128 x0 shapeCasts_S256x128_S256x128) (shapeCast S8192x128 x1 shapeCasts_S8192x128_S8192x128) (constant S256x8192 .f32 0x00000000#32) (ix2 p (col k.val l.val))) (Ideal.ofBits .f32 0x00000000#32))) (Ideal.ofBits .f32 0x00000000#32)
        * max (Ideal.ofBits .f32 0x3F800000#32 - Ideal.sqrt (max (matmul D none (shapeCast S256x128 x0 shapeCasts_S256x128_S256x128) (shapeCast S8192x128 x1 shapeCasts_S8192x128_S8192x128) (constant S256x8192 .f32 0x00000000#32) (ix2 p (col k.val l.val))) (Ideal.ofBits .f32 0x00000000#32))) (Ideal.ofBits .f32 0x00000000#32))
    = _
  rw [hprod, hcol, hrow, Ideal.ofBits_zero_f32]
  simp only [shapeCast_self]
  rfl

end Cert.KernelIdeal.Tile

end
-- ==== Proof.KernelResult.lean ====
/-
  The kernel's result, at the ideal instance, as a function of the arrays the region finds.

  Grid point t writes block t of the [32,1,128] result: lane l of it is the sum, over k < 64 and p < 256, of the pair
  term of row 256·t + p against row 128·k + l (`block_written`: the body's value read at a lane, each input block read
  where it sits in its array).  The 32 blocks tile the result (`blocks_cover`), so after the run the result array is that
  function of the four input arrays (`result_array`).  The operations after the region add the array up and divide by a
  constant (`result_eq`).
-/
import proofs.«143186_g56977036148935_feedfinal_177_9_alg».proof.Proof.KernelIdealFrame
import proofs.«143186_g56977036148935_feedfinal_177_9_alg».proof.Proof.KernelTile
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Result

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.KernelIdeal.Frame Cert.KernelIdeal.Tile Cert.PairTerm

variable (m : (ℓ : Loc nD τ sig) → Buf (Elt Ideal) ℓ) (ρ : Dev nD → PrngReg)

/-- Row `256·b + p` of 8192, for `b < 32` and `p < 256` (reduced modulo 8192, so that it is a row for any numbers). -/
def row (b p : ℕ) : Fin 8192 := ⟨(p + 256 * b) % 8192, Nat.mod_lt _ (by decide)⟩

theorem row_val (b p : ℕ) (hb : b < 32) (hp : p < 256) : (row b p).val = p + 256 * b := by
  show (p + 256 * b) % 8192 = _
  omega

/-- The pair term of row i against row j, from the region's four input arrays: the labels compared, the two augmented
    rows multiplied out. -/
def entryTerm (A B : FVec Ideal S8192x128 .f32) (LC : IVec S8192x1 32) (LR : IVec S1x8192 32) (i j : Fin 8192) : EReal :=
  fusedTerm (IntOp.cmpi .eq (LC (ix2 i (0 : Fin 1))) (LR (ix2 (0 : Fin 1) j))) (Ideal.ofBits .f32 0x3F800000#32)
    (∑ s : Fin 128, A (ix2 i s) * B (ix2 j s))

/-- The result array [32,1,128] as one function of the four input arrays: entry (b, 0, l) is the sum over k < 64 and
    p < 256 of the pair term of row 256·b + p against row 128·k + l. -/
def partials (A B : FVec Ideal S8192x128 .f32) (LC : IVec S8192x1 32) (LR : IVec S1x8192 32) : S32x1x128.Idx → EReal := fun i =>
  ∑ k : Fin 64, ∑ p : Fin 256, entryTerm A B LC LR (row (i 0).val p.val) (col k.val (i 2).val)

theorem zero_offsets2 : (![0, 0] : Fin 2 → Nat) = fun _ => 0 := funext fun a => by fin_cases a <;> rfl
theorem zero_offsets3 : (![0, 0, 0] : Fin 3 → Nat) = fun _ => 0 := funext fun a => by fin_cases a <;> rfl

/-- The block index maps, decided over the 32 grid points: windows 0, 2 and 4 move down their first axis with the
    point, windows 1 and 3 stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Window 0's block at point t, read at (p, s): row 256·t + p of its array. -/
theorem read0 (c : Dev nD) (t : Fin cfg0.N) (p : Fin 256) (s : Fin 128) :
    iblk m c 0 t (ix2 p s) = (V m c main_v7 : S8192x128.Idx → EReal) (ix2 (row t.val p.val) s) := by
  have ht : t.val < 32 := lt_of_lt_of_eq t.isLt N_0
  obtain ⟨e0, e1, -⟩ := block_indices t
  show V m c main_v7 (((cfg0.win 0).blk t).view.emb (ix2 p s)) = V m c main_v7 (ix2 (row t.val p.val) s)
  refine congrArg (V m c main_v7) (funext fun a => Fin.ext ?_)
  match a with
  | ⟨0, _⟩ => show win0_0.index t (0 : Fin 2) * 256 + 1 * p.val = (row t.val p.val).val; rw [row_val _ _ ht p.isLt, e0]; omega
  | ⟨1, _⟩ => show win0_0.index t (1 : Fin 2) * 128 + 1 * s.val = s.val; rw [e1]; omega

/-- Window 1's block is its whole array. -/
theorem read1 (c : Dev nD) (t : Fin cfg0.N) (q : Fin 8192) (s : Fin 128) :
    iblk m c 1 t (ix2 q s) = (V m c main_v8 : S8192x128.Idx → EReal) (ix2 q s) := by
  obtain ⟨-, -, e0, e1, -⟩ := block_indices t
  show V m c main_v8 (((cfg0.win 1).blk t).view.emb (ix2 q s)) = V m c main_v8 (ix2 q s)
  refine congrArg (V m c main_v8) (funext fun a => Fin.ext ?_)
  match a with
  | ⟨0, _⟩ => show win0_1.index t (0 : Fin 2) * 8192 + 1 * q.val = q.val; rw [e0]; omega
  | ⟨1, _⟩ => show win0_1.index t (1 : Fin 2) * 128 + 1 * s.val = s.val; rw [e1]; omega

/-- Window 2's block at point t, read at (p, 0): the label of row 256·t + p. -/
theorem read2 (c : Dev nD) (t : Fin cfg0.N) (p : Fin 256) :
    iblk m c 2 t (ix2 p (0 : Fin 1)) = (V m c main_v9 : S8192x1.Idx → BitVec 32) (ix2 (row t.val p.val) (0 : Fin 1)) := by
  have ht : t.val < 32 := lt_of_lt_of_eq t.isLt N_0
  obtain ⟨-, -, -, -, e0, e1, -⟩ := block_indices t
  show V m c main_v9 (((cfg0.win 2).blk t).view.emb (ix2 p (0 : Fin 1))) = V m c main_v9 (ix2 (row t.val p.val) (0 : Fin 1))
  refine congrArg (V m c main_v9) (funext fun a => Fin.ext ?_)
  match a with
  | ⟨0, _⟩ => show win0_2.index t (0 : Fin 2) * 256 + 1 * p.val = (row t.val p.val).val; rw [row_val _ _ ht p.isLt, e0]; omega
  | ⟨1, _⟩ => show win0_2.index t (1 : Fin 2) * 1 + 1 * 0 = 0; rw [e1]

/-- Window 3's block is its whole array. -/
theorem read3 (c : Dev nD) (t : Fin cfg0.N) (q : Fin 8192) :
    iblk m c 3 t (ix2 (0 : Fin 1) q) = (V m c main_v10 : S1x8192.Idx → BitVec 32) (ix2 (0 : Fin 1) q) := by
  obtain ⟨-, -, -, -, -, -, e0, e1, -⟩ := block_indices t
  show V m c main_v10 (((cfg0.win 3).blk t).view.emb (ix2 (0 : Fin 1) q)) = V m c main_v10 (ix2 (0 : Fin 1) q)
  refine congrArg (V m c main_v10) (funext fun a => Fin.ext ?_)
  match a with
  | ⟨0, _⟩ => show win0_3.index t (0 : Fin 2) * 1 + 1 * 0 = 0; rw [e0]
  | ⟨1, _⟩ => show win0_3.index t (1 : Fin 2) * 8192 + 1 * q.val = q.val; rw [e1]; omega

/-- What point t writes back is block t of `partials` of the four arrays as the region finds them. -/
theorem block_written (c : Dev nD) (t : Fin cfg0.N) :
    (dats m 0 c).flushed 4 t = ((cfg0.win 4).blk t).view.read (Elt Ideal)
      (partials (V m c main_v7) (V m c main_v8) (V m c main_v9) (V m c main_v10)) := by
  show (cfg0.win 4).cut (grid0.coords t) ((dats m 0 c).after 4 t) = _
  rw [after0_4]
  unfold rowBlockSum
  rw [View.canon_unit_zero zero_offsets3]
  simp only [View.ld_unit_zero (S := S256x128) zero_offsets2, View.ld_unit_zero (S := S8192x128) zero_offsets2, View.ld_unit_zero (S := S256x1) zero_offsets2,
    View.ld_unit_zero (S := S1x8192) zero_offsets2]
  have ht : t.val < 32 := lt_of_lt_of_eq t.isLt N_0
  obtain ⟨-, -, -, -, -, -, -, -, e0, e1, e2⟩ := block_indices t
  funext y
  have hy0 : (y 0).val < 1 := (y 0).isLt
  have hy1 : (y 1).val < 1 := (y 1).isLt
  have hy2 : (y 2).val < 128 := (y 2).isLt
  obtain ⟨l, rfl⟩ : ∃ l : Fin 128, y = ix3 (0 : Fin 1) (0 : Fin 1) l :=
    ⟨⟨(y 2).val, hy2⟩, funext fun a => Fin.ext (by
      match a with
      | ⟨0, _⟩ => show (y 0).val = 0; omega
      | ⟨1, _⟩ => show (y 1).val = 0; omega
      | ⟨2, _⟩ => rfl)⟩
  show k0_pay1 (F := Ideal) (iblk m c 0 t) (iblk m c 1 t) (iblk m c 2 t) (iblk m c 3 t) (ix3 (0 : Fin 1) (0 : Fin 1) l)
    = partials (V m c main_v7) (V m c main_v8) (V m c main_v9) (V m c main_v10) (((cfg0.win 4).blk t).view.emb (ix3 (0 : Fin 1) (0 : Fin 1) l))
  refine (pay_at (iblk m c 0 t) (iblk m c 1 t) (iblk m c 2 t) (iblk m c 3 t) l).trans ?_
  have hb : ((((cfg0.win 4).blk t).view.emb (ix3 (0 : Fin 1) (0 : Fin 1) l)) 0).val = t.val := by
    show win0_4.index t (0 : Fin 3) * 1 + 1 * 0 = t.val; rw [e0]; omega
  have hl : ((((cfg0.win 4).blk t).view.emb (ix3 (0 : Fin 1) (0 : Fin 1) l)) 2).val = l.val := by
    show win0_4.index t (2 : Fin 3) * 128 + 1 * l.val = l.val; rw [e2]; omega
  unfold partials entryTerm
  rw [hb, hl]
  refine Finset.sum_congr rfl fun k _ => Finset.sum_congr rfl fun p _ => ?_
  rw [read2 m c t p, read3 m c t (col k.val l.val)]
  refine congrArg _ (Finset.sum_congr rfl fun s _ => ?_)
  rw [read0 m c t p s, read1 m c t (col k.val l.val) s]

/-- An index of the result array lies in point t's block iff each coordinate is in the block's range on its axis. -/
theorem in_block_iff (t : Fin cfg0.N) (i : S32x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v11).slice (win0_4.rect t)).set ↔ _
  rw [View.set_slice_whole, Rect.mem_set_unit]
  exact Iff.rfl

/-- Every index of the result array lies in the block of the point its first coordinate names. -/
theorem blocks_cover (i : S32x1x128.Idx) : ∃ t : Fin cfg0.N, (cfg0.win 4).flush t = true ∧ i ∈ ((cfg0.win 4).blk t).view.set := by
  have h0 : (i 0).val < 32 := (i 0).isLt
  have h1 : (i 1).val < 1 := (i 1).isLt
  have h2 : (i 2).val < 128 := (i 2).isLt
  refine ⟨⟨(i 0).val, lt_of_lt_of_eq h0 N_0.symm⟩, flush0_4 _, ?_⟩
  obtain ⟨-, -, -, -, -, -, -, -, e0, e1, e2⟩ := block_indices ⟨(i 0).val, lt_of_lt_of_eq h0 N_0.symm⟩
  rw [in_block_iff]
  intro a
  match a with
  | ⟨0, _⟩ => show win0_4.index _ (0 : Fin 3) * 1 ≤ (i 0).val ∧ (i 0).val < win0_4.index _ (0 : Fin 3) * 1 + 1; rw [e0]; show (i 0).val * 1 ≤ (i 0).val ∧ (i 0).val < (i 0).val * 1 + 1; omega
  | ⟨1, _⟩ => show win0_4.index _ (1 : Fin 3) * 1 ≤ (i 1).val ∧ (i 1).val < win0_4.index _ (1 : Fin 3) * 1 + 1; rw [e1]; omega
  | ⟨2, _⟩ => show win0_4.index _ (2 : Fin 3) * 128 ≤ (i 2).val ∧ (i 2).val < win0_4.index _ (2 : Fin 3) * 128 + 128; rw [e2]; omega

/-- The result array after the run. -/
theorem result_array (c : Dev nD) : (dats m 0 c).arrAt 4 cfg0.N = partials (V m c main_v7) (V m c main_v8) (V m c main_v9) (V m c main_v10) :=
  (dats m 0 c).arrAt_eq_of_cover 4 _ (fun t _ => block_written m c t) blocks_cover

/-- The operations after the region: the array's total sum from zero, divided by the constant. -/
def lossOf (P : FVec Ideal S32x1x128 .f32) : FVec Ideal S_ .f32 :=
  Host.divf (F := Ideal) (Host.reduceAdd (F := Ideal) P (constant (F := Ideal) S_ .f32 0x00000000#32) reducesTo_S32x1x128_S_d0_1_2 h_S_)
    (constant (F := Ideal) S_ .f32 0x4C7FF800#32)

/-- The program's result buffer after the run. -/
theorem result_eq (c : Dev nD) :
    (Pipeline.afterTail₀ cfgs (dats m) 0 (V0 m) [hostOps1] c main_v13 : S_.Idx → EReal)
      = lossOf (partials (V m c main_v7) (V m c main_v8) (V m c main_v9) (V m c main_v10)) := by
  unfold Pipeline.afterTail₀
  show StableHlo.after hostOps1 _ (Proc.devRef .tc main_v13) = _
  after_results
  have hw := (Pipeline.withArrays_arr spec0 launch0.win.arr_inj c (V0 m c) (fun w => (dats m 0 c).arrAt w cfg0.N) 4).trans (result_array m c)
  exact congrArg lossOf hw

/-- The run, read: the result buffer at `lossOf` of `partials` of the entry arrays, the two arguments as launched. -/
theorem run : θ_run defs (onTc (τ := τ) (main (F := Ideal))) ⟨m, fun _ => 0, ρ⟩ fun r => ∀ c : Dev nD,
      r.2.mem ((c.tc : Thread nD τ).loc main_v13) = lossOf (partials (V m c main_v7) (V m c main_v8) (V m c main_v9) (V m c main_v10))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v13 (Pipeline.mem_restRefs_of main_v13 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Result

end
-- ==== Proof.KernelEntry.lean ====
/-
  What the region finds in its four input arrays, at the ideal instance: the host operations before the region, read
  back.  The left augmented matrix is  −2x | |x|² | 1 | 0 … 0  and the right one  x | 1 | |x|² | 0 … 0  (columns 0–63,
  64, 65, 66–127), |x|² the rows' squared norms; the labels are reshaped to a column and to a row.
-/
import proofs.«143186_g56977036148935_feedfinal_177_9_alg».proof.Proof.KernelIdealFrame
import Idealize.ShloMosaic.Lib.StableHlo.Run
import Idealize.ShloMosaic.Lib.Pipeline.Value
import Idealize.ShloMosaic.Lib.ValueIdx

set_option maxRecDepth 16384

noncomputable section

namespace Cert.KernelIdeal.EntryArrays

open Idealize.ShloMosaic Idealize.ShloMosaic.TcCoe Idealize.SL.Sem Idealize.ShloMosaic.StableHlo
open Cert.KernelIdeal Cert.KernelIdeal.Gen Cert.KernelIdeal.Frame

/-- One host operation's result read at a buffer: its function's value at its own result buffer, what was there before
    at any other. -/
macro "read_results" : tactic =>
  `(tactic| repeat (first
     | rw [nullary_result] | rw [unary_result] | rw [binary_result] | rw [reshape_result] | rw [nary4_result]
     | (rw [nullary_result_ne]; rotate_left; decide)
     | (rw [unary_result_ne]; rotate_left; decide)
     | (rw [binary_result_ne]; rotate_left; decide)
     | (rw [reshape_result_ne]; rotate_left; decide)
     | (rw [nary_result_ne]; rotate_left; decide)))

variable (m : (ℓ : Loc nD τ sig) → Buf (Elt Ideal) ℓ) (c : Dev nD)

/-- The squared norms of the rows of `x`. -/
def rowSq (x : FVec Ideal S8192x64 .f32) : FVec Ideal S8192 .f32 :=
  Host.reduceAdd (F := Ideal) (mulf x x) (constant (F := Ideal) S_ .f32 0x00000000#32) reducesTo_S8192x64_S8192_d1 h_S_

/-- The left augmented matrix: −2x, the squared norms, ones, zeros, side by side. -/
def augL (x : FVec Ideal S8192x64 .f32) : FVec Ideal S8192x128 .f32 :=
  concatenate S8192x128 1
    [⟨S8192x64, mulf (broadcastInDim S8192x64 ![] bcast_S_S8192x64 (constant (F := Ideal) S_ .f32 0xC0000000#32)) x⟩,
     ⟨S8192x1, broadcastInDim S8192x1 ![0] bcast_S8192_S8192x1_0 (rowSq x)⟩,
     ⟨S8192x1, broadcastInDim S8192x1 ![] bcast_S_S8192x1 (constant (F := Ideal) S_ .f32 0x3F800000#32)⟩,
     ⟨S8192x62, broadcastInDim S8192x62 ![] bcast_S_S8192x62 (constant (F := Ideal) S_ .f32 0x00000000#32)⟩]
    concatenates_S8192x64_S8192x1_S8192x1_S8192x62_S8192x128_d1

/-- The right augmented matrix: x, ones, the squared norms, zeros, side by side. -/
def augR (x : FVec Ideal S8192x64 .f32) : FVec Ideal S8192x128 .f32 :=
  concatenate S8192x128 1
    [⟨S8192x64, x⟩,
     ⟨S8192x1, broadcastInDim S8192x1 ![] bcast_S_S8192x1 (constant (F := Ideal) S_ .f32 0x3F800000#32)⟩,
     ⟨S8192x1, broadcastInDim S8192x1 ![0] bcast_S8192_S8192x1_0 (rowSq x)⟩,
     ⟨S8192x62, broadcastInDim S8192x62 ![] bcast_S_S8192x62 (constant (F := Ideal) S_ .f32 0x00000000#32)⟩]
    concatenates_S8192x64_S8192x1_S8192x1_S8192x62_S8192x128_d1

/-- Window 0's array when the region is entered is the left augmented matrix of the first argument. -/
theorem entry_augL : (V m c main_v7 : S8192x128.Idx → EReal) = augL (m ((c : Thread nD τ).loc main_arg0)) := by
  show StableHlo.after hostOps0 (fun b => m (c, b)) (Proc.devRef .tc main_v7) = _
  simp only [after_cons, after_nil]
  read_results
  rfl

/-- Window 1's array is the right augmented matrix. -/
theorem entry_augR : (V m c main_v8 : S8192x128.Idx → EReal) = augR (m ((c : Thread nD τ).loc main_arg0)) := by
  show StableHlo.after hostOps0 (fun b => m (c, b)) (Proc.devRef .tc main_v8) = _
  simp only [after_cons, after_nil]
  read_results
  rfl

/-- Window 2's array is the labels as a column. -/
theorem entry_labCol : (V m c main_v9 : S8192x1.Idx → BitVec 32) = shapeCast S8192x1 (m ((c : Thread nD τ).loc main_arg1)) shapeCasts_S8192_S8192x1 := by
  show StableHlo.after hostOps0 (fun b => m (c, b)) (Proc.devRef .tc main_v9) = _
  simp only [after_cons, after_nil]
  read_results
  rfl

/-- Window 3's array is the labels as a row. -/
theorem entry_labRow : (V m c main_v10 : S1x8192.Idx → BitVec 32) = shapeCast S1x8192 (m ((c : Thread nD τ).loc main_arg1)) shapeCasts_S8192_S1x8192 := by
  show StableHlo.after hostOps0 (fun b => m (c, b)) (Proc.devRef .tc main_v10) = _
  simp only [after_cons, after_nil]
  read_results
  rfl

end Cert.KernelIdeal.EntryArrays

end
-- ==== Proof.AugRead.lean ====
/-
  The region's four input arrays read at an entry, at the ideal instance.

  Row i of the left augmented matrix is  −2·x_i  in columns 0–63, the squared norm |x_i|² in column 64, the constant one
  in column 65 and the constant zero from column 66 on; row j of the right one is  x_j , one, |x_j|², zeros.  The squared
  norm is the sum of the squares from the constant zero.  The labels' column at (i, 0) and row at (0, j) are the labels
  of i and of j.
-/
import proofs.«143186_g56977036148935_feedfinal_177_9_alg».proof.Proof.KernelEntry
import Idealize.ShloMosaic.Lib.ValueLayout
import Idealize.ShloMosaic.PureOps.Ideal.Laws

set_option maxRecDepth 16384

noncomputable section

open scoped BigOperators

namespace Cert.KernelIdeal.AugRead

open Idealize.ShloMosaic Idealize.ShloMosaic.ValueIdx
open Cert.KernelIdeal Cert.KernelIdeal.Gen Cert.KernelIdeal.EntryArrays

/-- A scalar constant broadcast to a whole array, read anywhere, is the constant's word. -/
theorem splat_at {t : Shape} (h : S_.BroadcastsInDim t (![] : Fin 0 → Fin t.rank)) (w : BitVec 32) (j : t.Idx) :
    broadcastInDim t ![] h (constant (F := Ideal) S_ .f32 w) j = Ideal.ofBits .f32 w :=
  broadcastInDim_apply _ h _ j (fun a => a.elim0) (fun a => a.elim0)

/-- The squared norm of row i: the squares summed from the constant zero. -/
theorem rowSq_at (x : FVec Ideal S8192x64 .f32) (i : Fin 8192) :
    rowSq x (ix1 i) = Ideal.ofBits .f32 0x00000000#32 + ∑ k : Fin 64, x (ix2 i k) * x (ix2 i k) := by
  unfold rowSq
  simp only [Host.reduceAdd, Ideal.hostReduceAdd_def]
  rw [Ideal.hostReduceAdd_single reducesTo_S8192x64_S8192_d1 (by decide)]
  refine congrArg (_ + ·) (Finset.sum_congr rfl fun k _ => ?_)
  exact congrArg (mulf x x) (funext fun a => Fin.ext (by match a with | ⟨0, _⟩ => rfl | ⟨1, _⟩ => rfl))

/-- The squared norms as a column, at (i, 0). -/
theorem sqCol_at (x : FVec Ideal S8192x64 .f32) (i : Fin 8192) :
    broadcastInDim S8192x1 ![0] bcast_S8192_S8192x1_0 (rowSq x) (ix2 i (0 : Fin 1)) = rowSq x (ix1 i) :=
  broadcastInDim_apply _ bcast_S8192_S8192x1_0 _ _ (ix1 i) (fun a => match a with
    | ⟨0, _⟩ => by show i.val = if (8192 : Nat) = 1 then 0 else i.val; rw [if_neg (by decide)])

/-! ## The left augmented matrix -/

theorem augL_lo (x : FVec Ideal S8192x64 .f32) (i : Fin 8192) (s : Fin 128) (h : s.val < 64) :
    augL x (ix2 i s) = Ideal.ofBits .f32 0xC0000000#32 * x (ix2 i ⟨s.val, h⟩) := by
  unfold augL
  refine (concatenate_apply_piece (1 : Fin S8192x128.rank) _ _ (ix2 i s) 0 (by show (0 : ℕ) < 4; omega) S8192x64 _ rfl rfl 0 (by rfl)
    (ix2 i (⟨s.val, h⟩ : Fin 64)) ?_ ?_).trans ?_
  · intro b hb
    match b with
    | ⟨0, _⟩ => rfl
    | ⟨1, _⟩ => exact absurd rfl hb
  · show 0 + s.val = s.val; omega
  · show broadcastInDim S8192x64 ![] bcast_S_S8192x64 (constant (F := Ideal) S_ .f32 0xC0000000#32) (ix2 i (⟨s.val, h⟩ : Fin 64)) * x _ = _
    rw [splat_at]

theorem augL_sq (x : FVec Ideal S8192x64 .f32) (i : Fin 8192) (s : Fin 128) (h : s.val = 64) :
    augL x (ix2 i s) = rowSq x (ix1 i) := by
  unfold augL
  refine (concatenate_apply_piece (1 : Fin S8192x128.rank) _ _ (ix2 i s) 1 (by show (1 : ℕ) < 4; omega) S8192x1 _ rfl rfl 64 (by rfl)
    (ix2 i (0 : Fin 1)) ?_ ?_).trans (sqCol_at x i)
  · intro b hb
    match b with
    | ⟨0, _⟩ => rfl
    | ⟨1, _⟩ => exact absurd rfl hb
  · show 64 + 0 = s.val; omega

theorem augL_one (x : FVec Ideal S8192x64 .f32) (i : Fin 8192) (s : Fin 128) (h : s.val = 65) :
    augL x (ix2 i s) = Ideal.ofBits .f32 0x3F800000#32 := by
  unfold augL
  refine (concatenate_apply_piece (1 : Fin S8192x128.rank) _ _ (ix2 i s) 2 (by show (2 : ℕ) < 4; omega) S8192x1 _ rfl rfl 65 (by rfl)
    (ix2 i (0 : Fin 1)) ?_ ?_).trans (splat_at _ _ _)
  · intro b hb
    match b with
    | ⟨0, _⟩ => rfl
    | ⟨1, _⟩ => exact absurd rfl hb
  · show 65 + 0 = s.val; omega

theorem augL_hi (x : FVec Ideal S8192x64 .f32) (i : Fin 8192) (s : Fin 128) (h : 66 ≤ s.val) :
    augL x (ix2 i s) = Ideal.ofBits .f32 0x00000000#32 := by
  unfold augL
  have hs : s.val - 66 < 62 := by have := s.isLt; omega
  refine (concatenate_apply_piece (1 : Fin S8192x128.rank) _ _ (ix2 i s) 3 (by show (3 : ℕ) < 4; omega) S8192x62 _ rfl rfl 66 (by rfl)
    (ix2 i (⟨s.val - 66, hs⟩ : Fin 62)) ?_ ?_).trans (splat_at _ _ _)
  · intro b hb
    match b with
    | ⟨0, _⟩ => rfl
    | ⟨1, _⟩ => exact absurd rfl hb
  · show 66 + (s.val - 66) = s.val; omega

/-! ## The right augmented matrix -/

theorem augR_lo (x : FVec Ideal S8192x64 .f32) (i : Fin 8192) (s : Fin 128) (h : s.val < 64) :
    augR x (ix2 i s) = x (ix2 i ⟨s.val, h⟩) := by
  unfold augR
  refine (concatenate_apply_piece (1 : Fin S8192x128.rank) _ _ (ix2 i s) 0 (by show (0 : ℕ) < 4; omega) S8192x64 _ rfl rfl 0 (by rfl)
    (ix2 i (⟨s.val, h⟩ : Fin 64)) ?_ ?_)
  · intro b hb
    match b with
    | ⟨0, _⟩ => rfl
    | ⟨1, _⟩ => exact absurd rfl hb
  · show 0 + s.val = s.val; omega

theorem augR_one (x : FVec Ideal S8192x64 .f32) (i : Fin 8192) (s : Fin 128) (h : s.val = 64) :
    augR x (ix2 i s) = Ideal.ofBits .f32 0x3F800000#32 := by
  unfold augR
  refine (concatenate_apply_piece (1 : Fin S8192x128.rank) _ _ (ix2 i s) 1 (by show (1 : ℕ) < 4; omega) S8192x1 _ rfl rfl 64 (by rfl)
    (ix2 i (0 : Fin 1)) ?_ ?_).trans (splat_at _ _ _)
  · intro b hb
    match b with
    | ⟨0, _⟩ => rfl
    | ⟨1, _⟩ => exact absurd rfl hb
  · show 64 + 0 = s.val; omega

theorem augR_sq (x : FVec Ideal S8192x64 .f32) (i : Fin 8192) (s : Fin 128) (h : s.val = 65) :
    augR x (ix2 i s) = rowSq x (ix1 i) := by
  unfold augR
  refine (concatenate_apply_piece (1 : Fin S8192x128.rank) _ _ (ix2 i s) 2 (by show (2 : ℕ) < 4; omega) S8192x1 _ rfl rfl 65 (by rfl)
    (ix2 i (0 : Fin 1)) ?_ ?_).trans (sqCol_at x i)
  · intro b hb
    match b with
    | ⟨0, _⟩ => rfl
    | ⟨1, _⟩ => exact absurd rfl hb
  · show 65 + 0 = s.val; omega

theorem augR_hi (x : FVec Ideal S8192x64 .f32) (i : Fin 8192) (s : Fin 128) (h : 66 ≤ s.val) :
    augR x (ix2 i s) = Ideal.ofBits .f32 0x00000000#32 := by
  unfold augR
  have hs : s.val - 66 < 62 := by have := s.isLt; omega
  refine (concatenate_apply_piece (1 : Fin S8192x128.rank) _ _ (ix2 i s) 3 (by show (3 : ℕ) < 4; omega) S8192x62 _ rfl rfl 66 (by rfl)
    (ix2 i (⟨s.val - 66, hs⟩ : Fin 62)) ?_ ?_).trans (splat_at _ _ _)
  · intro b hb
    match b with
    | ⟨0, _⟩ => rfl
    | ⟨1, _⟩ => exact absurd rfl hb
  · show 66 + (s.val - 66) = s.val; omega

/-! ## The labels -/

/-- The labels as a column, at (i, 0): the label of i. -/
theorem labCol_at (lab : IVec S8192 32) (i : Fin 8192) :
    shapeCast S8192x1 lab shapeCasts_S8192_S8192x1 (ix2 i (0 : Fin 1)) = lab (ix1 i) :=
  shapeCast_apply lab _ _ _ (by
    rw [Shape.rowMajor_val_two, Shape.rowMajor_val_one]
    show i.val = i.val * 1 + 0
    omega)

/-- The labels as a row, at (0, j): the label of j. -/
theorem labRow_at (lab : IVec S8192 32) (j : Fin 8192) :
    shapeCast S1x8192 lab shapeCasts_S8192_S1x8192 (ix2 (0 : Fin 1) j) = lab (ix1 j) :=
  shapeCast_a_1a_apply lab _ (0 : Fin 1) j

end Cert.KernelIdeal.AugRead

end
-- ==== Proof.RefValue.lean ====
/-
  The reference's pair term read at a pair of rows, at the ideal instance.

  Entry (i, j) of the [8192,8192] array the reference sums is the masked pair term of rows i and j: the diagonal bit
  compares the two row numbers as 32-bit words, the labels are compared for equality and for inequality, and the
  squared distance is |x_i|² + |x_j|² − 2 · x_i·x_j, each squared norm a sum started from zero.
-/
import proofs.«143186_g56977036148935_feedfinal_177_9_alg».proof.Proof.Gen.ReferenceIdeal.Read
import proofs.«143186_g56977036148935_feedfinal_177_9_alg».proof.Proof.PairTerm

set_option maxRecDepth 16384

noncomputable section

open scoped BigOperators

namespace Cert.ReferenceIdeal.RefValue

open Idealize.ShloMosaic Idealize.ShloMosaic.ValueIdx
open Cert.ReferenceIdeal Cert.ReferenceIdeal.Gen Cert.ReferenceIdeal.Read Cert.PairTerm

/-- The squared norm of row i, summed from zero. -/
def sqn (x : FVec Ideal S8192x64 .f32) (i : Fin 8192) : EReal := 0 + ∑ k : Fin 64, x (ix2 i k) * x (ix2 i k)

/-- Is (i, j) on the diagonal: the two row numbers compared as 32-bit words. -/
def diagBit (i j : Fin 8192) : BitVec 1 := IntOp.cmpi .eq (IntOp.addi (BitVec.ofNat 32 i.val) 0#32) (BitVec.ofNat 32 j.val)

/-- The reference's term of the pair (i, j). -/
def refTerm (x : FVec Ideal S8192x64 .f32) (lab : IVec S8192 32) (i j : Fin 8192) : EReal :=
  maskedTerm (diagBit i j)
    (IntOp.andi (IntOp.cmpi .eq (lab (ix1 i)) (lab (ix1 j))) (~~~diagBit i j))
    (IntOp.cmpi .ne (lab (ix1 i)) (lab (ix1 j)))
    (Ideal.ofBits .f32 0x3F800000#32)
    (sqn x i + sqn x j - Ideal.ofBits .f32 0x40000000#32 * ∑ k : Fin 64, x (ix2 i k) * x (ix2 j k))

theorem e_rowsq_l (i j : Fin 8192) (k : Fin 64) : idx_main_v1 (idx_main_v2 (idx_main_v4 (ix2 i j))) k = ix2 i k :=
  funext fun a => Fin.ext (by match a with | ⟨0, _⟩ => rfl | ⟨1, _⟩ => rfl)
theorem e_rowsq_r (i j : Fin 8192) (k : Fin 64) : idx_main_v1 (idx_main_v3 (idx_main_v5 (ix2 i j))) k = ix2 j k :=
  funext fun a => Fin.ext (by match a with | ⟨0, _⟩ => rfl | ⟨1, _⟩ => rfl)
theorem e_gram_l (i j : Fin 8192) (k : Fin 64) : lidx_main_v8 (ix2 i j) k = ix2 i k :=
  funext fun a => Fin.ext (by match a with | ⟨0, _⟩ => rfl | ⟨1, _⟩ => rfl)
theorem e_gram_r (i j : Fin 8192) (k : Fin 64) : idx_main_v7 (ridx_main_v8 (ix2 i j) k) = ix2 j k :=
  funext fun a => Fin.ext (by match a with | ⟨0, _⟩ => rfl | ⟨1, _⟩ => rfl)
theorem e_lab_a (i j : Fin 8192) : idx_main_v21 (idx_main_v23 (ix2 i j)) = ix1 i :=
  funext fun a => Fin.ext (by match a with | ⟨0, _⟩ => rfl)
theorem e_lab_b (i j : Fin 8192) : idx_main_v22 (idx_main_v24 (ix2 i j)) = ix1 j :=
  funext fun a => Fin.ext (by match a with | ⟨0, _⟩ => rfl)
theorem e_lab_c (i j : Fin 8192) : idx_main_v28 (idx_main_v30 (ix2 i j)) = ix1 i :=
  funext fun a => Fin.ext (by match a with | ⟨0, _⟩ => rfl)
theorem e_lab_d (i j : Fin 8192) : idx_main_v29 (idx_main_v31 (ix2 i j)) = ix1 j :=
  funext fun a => Fin.ext (by match a with | ⟨0, _⟩ => rfl)

/-- The summed array at (i, j) is the masked pair term of rows i and j. -/
theorem ref_at (x : FVec Ideal S8192x64 .f32) (lab : IVec S8192 32) (i j : Fin 8192) :
    val_main_v41 (F := Ideal) x lab (ix2 i j) = refTerm x lab i j := by
  simp only [val_main_v41_apply, val_main_v34_apply, val_main_v40_apply, val_main_v27_apply, val_main_v33_apply, val_main_call1_v1_apply, val_main_call1_v0_apply, val_main_cst_3_apply, val_main_v32_apply, val_main_v39_apply, val_main_call2_v1_apply, val_main_call2_v0_apply, val_main_cst_6_apply, val_main_v38_apply, val_main_v36_apply, val_main_v37_apply, val_main_cst_5_apply, val_main_v35_apply, val_main_cst_4_apply, val_main_v25_apply, val_main_v26_apply, val_main_v23_apply, val_main_v24_apply, val_main_v21_apply, val_main_v22_apply, val_main_v30_apply, val_main_v31_apply, val_main_v28_apply, val_main_v29_apply, val_main_v20_apply, val_main_v19_apply, val_main_v18_apply, val_main_call0_v1_apply, val_main_call0_v0_apply, val_main_cst_2_apply, val_main_v13_apply, val_main_v17_apply, val_main_v15_apply, val_main_v14_apply, val_main_v16_apply, val_main_c_apply, val_main_v11_apply, val_main_v12_apply, val_main_cst_1_apply, val_main_v6_apply, val_main_v10_apply, val_main_v4_apply, val_main_v5_apply, val_main_v2_apply, val_main_v3_apply, val_main_v1_apply, val_main_v0_apply, val_main_cst_apply, val_main_v9_apply, val_main_cst_0_apply, val_main_v8_apply, val_main_v7_apply]
  simp only [e_rowsq_l, e_rowsq_r, e_gram_l, e_gram_r, e_lab_a, e_lab_b, e_lab_c, e_lab_d]
  simp only [Ideal.ofBits_def, Ideal.ofBits_zero_f32]
  rfl

/-- The reference's result: the total of the pair terms from zero, divided by the constant. -/
theorem ref_total (x : FVec Ideal S8192x64 .f32) (lab : IVec S8192 32) (u : S_.Idx) :
    val_main_v43 (F := Ideal) x lab u
      = FloatOps.hostDivf (Ideal.ofBits .f32 0x00000000#32 + ∑ i : Fin 8192, ∑ j : Fin 8192, refTerm x lab i j) (Ideal.ofBits .f32 0x4C7FF800#32) := by
  rw [val_main_v43_apply, val_main_v42_apply, sum_idx2]
  simp only [ref_at]
  rfl

end Cert.ReferenceIdeal.RefValue

end
-- ==== Proof.Consts.lean ====
/-
  The float constants the two programs spell, as the reals their words denote at the ideal instance.
-/
import Idealize.ShloMosaic.PureOps.Ideal

noncomputable section

namespace Cert.Consts

open Idealize.ShloMosaic

/-- The word of `1.0` denotes the real 1. -/
theorem ofBits_one : Ideal.ofBits .f32 0x3F800000#32 = ((1 : ℝ) : EReal) := by
  simp [Ideal.ofBits, Ideal.ieee, -EReal.coe_mul]; norm_num

/-- The word of `2.0` denotes the real 2. -/
theorem ofBits_two : Ideal.ofBits .f32 0x40000000#32 = ((2 : ℝ) : EReal) := by
  simp [Ideal.ofBits, Ideal.ieee, -EReal.coe_mul]; norm_num

/-- The word of `-2.0` denotes the real −2. -/
theorem ofBits_neg_two : Ideal.ofBits .f32 0xC0000000#32 = ((-2 : ℝ) : EReal) := by
  simp [Ideal.ofBits, Ideal.ieee, -EReal.coe_mul]; norm_num

end Cert.Consts

end
-- ==== Proof.LibSumChunks.lean ====
/-
  Two facts about finite sums in a commutative additive monoid — no cancellation, no order, no finiteness of the
  values is used, so they hold of the extended reals with both infinities:

  * `sum_chunks`: a sum over `a * b` consecutive indices is the sum over its `a` consecutive chunks of `b` indices of
    each chunk's own sum (index `j + b * c` is entry `j` of chunk `c`);
  * `fold_eq_sum`: a left-to-right accumulation `z, z + g 0, (z + g 0) + g 1, …` stands, after `n` steps, at `z` plus
    the sum of the first `n` terms.

  Together: an accumulator started at `z` and advanced chunk by chunk by the chunk's sum ends at `z` plus the sum
  over all indices.
-/
import Mathlib.Algebra.BigOperators.Fin
import Mathlib.Logic.Equiv.Fin.Basic

open scoped BigOperators

namespace Cert.Lib.SumChunks

/-- Entry `j` of chunk `c` (of `a` chunks of `b`) is a position below `a * b`. -/
theorem chunk_lt {a b : ℕ} (c : Fin a) (j : Fin b) : j.val + b * c.val < a * b := by
  have hc : c.val + 1 ≤ a := c.isLt
  calc j.val + b * c.val < b + b * c.val := Nat.add_lt_add_right j.isLt _
    _ = b * (c.val + 1) := by rw [Nat.mul_succ, Nat.add_comm]
    _ ≤ b * a := Nat.mul_le_mul_left _ hc
    _ = a * b := Nat.mul_comm _ _

/-- A sum over `n = a * b` consecutive indices, chunk by chunk: the `a` chunks' sums, summed. -/
theorem sum_chunks {M : Type*} [AddCommMonoid M] {n : ℕ} (a b : ℕ) (h : a * b = n) (f : Fin n → M) :
    ∑ k : Fin n, f k = ∑ c : Fin a, ∑ j : Fin b, f ⟨j.val + b * c.val, h ▸ chunk_lt c j⟩ := by
  subst h
  rw [← Equiv.sum_comp finProdFinEquiv f, Fintype.sum_prod_type]
  rfl

/-- A left-to-right accumulation from `z` by the terms `g 0, g 1, …` stands after `n ≤ N` steps at `z` plus the sum
    of the first `n` terms (the step equation is only asked of the first `N` steps). -/
theorem fold_eq_sum {M : Type*} [AddCommMonoid M] (z : M) (g : ℕ → M) (s : ℕ → M) (N : ℕ) (h0 : s 0 = z)
    (hs : ∀ k, k < N → s (k + 1) = s k + g k) : ∀ n, n ≤ N → s n = z + ∑ k ∈ Finset.range n, g k
  | 0, _ => by rw [h0, Finset.sum_range_zero, add_zero]
  | n + 1, hn => by
    rw [hs n (Nat.lt_of_succ_le hn), fold_eq_sum z g s N h0 hs n (Nat.le_of_succ_le hn), Finset.sum_range_succ, add_assoc]

/-- The two together: an accumulator started at `z` and advanced, chunk after chunk, by the sum of the chunk's `b`
    entries stands after all `a` chunks at `z` plus the sum over all `a * b` indices. -/
theorem fold_chunks_eq_sum {M : Type*} [AddCommMonoid M] {n : ℕ} (a b : ℕ) (h : a * b = n) (f : Fin n → M) (z : M)
    (s : ℕ → M) (h0 : s 0 = z)
    (hs : ∀ c : Fin a, s (c.val + 1) = s c.val + ∑ j : Fin b, f ⟨j.val + b * c.val, h ▸ chunk_lt c j⟩) :
    s a = z + ∑ k : Fin n, f k := by
  let g : ℕ → M := fun c => if hc : c < a then ∑ j : Fin b, f ⟨j.val + b * c, h ▸ chunk_lt ⟨c, hc⟩ j⟩ else 0
  have hg : ∀ c : Fin a, g c.val = ∑ j : Fin b, f ⟨j.val + b * c.val, h ▸ chunk_lt c j⟩ := fun c => dif_pos c.isLt
  rw [fold_eq_sum z g s a h0 (fun k hk => by rw [hs ⟨k, hk⟩, ← hg ⟨k, hk⟩]) a le_rfl, sum_chunks a b h f,
    Finset.sum_range]
  exact congrArg (z + ·) (Finset.sum_congr rfl fun c _ => hg c)

end Cert.Lib.SumChunks
-- ==== Proof.Bridge.lean ====
/-
  The kernel's result and the reference's are one function of finite inputs, at the ideal instance.

  With every entry of x a real, row i of the left augmented matrix against row j of the right one multiplies out to
  the squared distance |x_i|² + |x_j|² − 2 x_i·x_j (the law used is distributivity over the reals, which is why
  finiteness is needed), the same real the reference forms; on the diagonal it is zero.  The label bits hang together
  as the two readings of a pair's term need (`pair_terms_agree`), so the two programs add the same 8192 × 8192 terms:
  the kernel in blocks of 256 rows and, within a row, in 64 groups of 128 columns; the reference all at once.  A finite
  sum in a commutative monoid does not depend on that grouping.  Both then divide by the same constant.
-/
import proofs.«143186_g56977036148935_feedfinal_177_9_alg».proof.Proof.KernelResult
import proofs.«143186_g56977036148935_feedfinal_177_9_alg».proof.Proof.AugRead
import proofs.«143186_g56977036148935_feedfinal_177_9_alg».proof.Proof.RefValue
import proofs.«143186_g56977036148935_feedfinal_177_9_alg».proof.Proof.Consts
import proofs.«143186_g56977036148935_feedfinal_177_9_alg».proof.Proof.LibSumChunks

set_option maxRecDepth 16384

noncomputable section

open scoped BigOperators

namespace Cert.Bridge

open Idealize.ShloMosaic Idealize.ShloMosaic.ValueIdx
open Cert.KernelIdeal Cert.KernelIdeal.Gen Cert.KernelIdeal.EntryArrays Cert.KernelIdeal.AugRead Cert.KernelIdeal.Result
  Cert.KernelIdeal.Tile Cert.PairTerm
open Cert.ReferenceIdeal.RefValue (refTerm sqn diagBit)

/-! ## The two squared distances, over real entries -/

section Real

variable (x : FVec Ideal S8192x64 .f32) (r : S8192x64.Idx → ℝ) (hx : ∀ idx, x idx = (r idx : EReal))

/-- Row i of the reals behind `x`. -/
def rowOf (r : S8192x64.Idx → ℝ) (i : Fin 8192) : Fin 64 → ℝ := fun k => r (ix2 i k)

include hx

theorem sq_real (i : Fin 8192) : rowSq x (ix1 i) = ((∑ t, rowOf r i t * rowOf r i t : ℝ) : EReal) := by
  rw [rowSq_at, Ideal.ofBits_zero_f32, zero_add, coe_sum]
  refine Finset.sum_congr rfl fun k _ => ?_
  rw [hx, ← EReal.coe_mul]; rfl

theorem augL_real (i : Fin 8192) (s : Fin 128) : augL x (ix2 i s) = (augRowL (rowOf r i) s : EReal) := by
  unfold augRowL
  by_cases h : s.val < 64
  · rw [dif_pos h, augL_lo x i s h, hx, Consts.ofBits_neg_two, ← EReal.coe_mul]; rfl
  · rw [dif_neg h]
    by_cases h64 : s.val = 64
    · rw [if_pos h64, augL_sq x i s h64, sq_real x r hx]
    · rw [if_neg h64]
      by_cases h65 : s.val = 65
      · rw [if_pos h65, augL_one x i s h65, Consts.ofBits_one]
      · rw [if_neg h65, augL_hi x i s (by omega), Ideal.ofBits_zero_f32, EReal.coe_zero]

theorem augR_real (j : Fin 8192) (s : Fin 128) : augR x (ix2 j s) = (augRowR (rowOf r j) s : EReal) := by
  unfold augRowR
  by_cases h : s.val < 64
  · rw [dif_pos h, augR_lo x j s h, hx]; rfl
  · rw [dif_neg h]
    by_cases h64 : s.val = 64
    · rw [if_pos h64, augR_one x j s h64, Consts.ofBits_one]
    · rw [if_neg h64]
      by_cases h65 : s.val = 65
      · rw [if_pos h65, augR_sq x j s h65, sq_real x r hx]
      · rw [if_neg h65, augR_hi x j s (by omega), Ideal.ofBits_zero_f32, EReal.coe_zero]

/-- The two augmented rows multiplied out: the squared distance. -/
theorem aug_product (i j : Fin 8192) :
    ∑ s : Fin 128, augL x (ix2 i s) * augR x (ix2 j s) = (sqDist (rowOf r i) (rowOf r j) : EReal) := by
  rw [← aug_dot, coe_sum]
  refine Finset.sum_congr rfl fun s _ => ?_
  rw [augL_real x r hx, augR_real x r hx, ← EReal.coe_mul]

/-- The reference's squared distance is the same real. -/
theorem ref_dist (i j : Fin 8192) :
    sqn x i + sqn x j - Ideal.ofBits .f32 0x40000000#32 * ∑ k : Fin 64, x (ix2 i k) * x (ix2 j k)
      = (sqDist (rowOf r i) (rowOf r j) : EReal) := by
  have hs : ∀ a b : Fin 8192, (∑ k : Fin 64, x (ix2 a k) * x (ix2 b k)) = ((∑ k : Fin 64, rowOf r a k * rowOf r b k : ℝ) : EReal) := by
    intro a b
    rw [coe_sum]
    refine Finset.sum_congr rfl fun k _ => ?_
    rw [hx, hx, ← EReal.coe_mul]; rfl
  unfold sqn sqDist
  rw [hs, hs, hs, zero_add, zero_add, Consts.ofBits_two, ← EReal.coe_mul, ← EReal.coe_add, ← EReal.coe_sub]

end Real

/-! ## The label bits -/

theorem and_not_of_ne : ∀ a d : BitVec 1, d ≠ 1 → IntOp.andi a (~~~d) = a := by decide
theorem and_not_one : ∀ a : BitVec 1, IntOp.andi a (~~~(1 : BitVec 1)) ≠ 1 := by decide

theorem ne_bit_iff (p q : BitVec 32) : IntOp.cmpi .ne p q = 1 ↔ IntOp.cmpi .eq p q ≠ 1 := by
  unfold IntOp.cmpi
  by_cases h : p = q
  · subst h; simp
  · have h1 : (p == q) = false := by simpa using h
    have h2 : (p != q) = true := by simp [bne, h1]
    simp only [h1, h2]; decide

theorem eq_bit_self (p : BitVec 32) : IntOp.cmpi .eq p p = 1 := by
  unfold IntOp.cmpi; simp

theorem ne_bit_self (p : BitVec 32) : IntOp.cmpi .ne p p ≠ 1 := by
  unfold IntOp.cmpi; simp

/-- The diagonal bit is on only on the diagonal: two row numbers below 2³² equal as 32-bit words are equal. -/
theorem eq_of_diagBit (i j : Fin 8192) (h : diagBit i j = 1) : i = j := by
  unfold diagBit IntOp.cmpi IntOp.addi at h
  rw [BitVec.add_zero] at h
  have hi := i.isLt
  have hj := j.isLt
  by_cases e : BitVec.ofNat 32 i.val = BitVec.ofNat 32 j.val
  · have e' := congrArg BitVec.toNat e
    simp only [BitVec.toNat_ofNat] at e'
    exact Fin.ext (by omega)
  · have hne : (BitVec.ofNat 32 i.val == BitVec.ofNat 32 j.val) = false := by simpa using e
    rw [hne] at h
    simp at h

/-! ## One pair -/

/-- The kernel's term of the pair (i, j) is the reference's, over real entries. -/
theorem pair_eq (x : FVec Ideal S8192x64 .f32) (lab : IVec S8192 32) (r : S8192x64.Idx → ℝ) (hx : ∀ idx, x idx = (r idx : EReal))
    (i j : Fin 8192) :
    entryTerm (augL x) (augR x) (shapeCast S8192x1 lab shapeCasts_S8192_S8192x1) (shapeCast S1x8192 lab shapeCasts_S8192_S1x8192) i j
      = refTerm x lab i j := by
  unfold entryTerm refTerm
  rw [labCol_at, labRow_at, aug_product x r hx, ref_dist x r hx]
  refine pair_terms_agree _ _ _ _ _ _ ?_ ?_
  · intro hd
    exact ⟨and_not_of_ne _ _ hd, ne_bit_iff _ _⟩
  · intro hd
    obtain rfl := eq_of_diagBit i j hd
    refine ⟨eq_bit_self _, ?_, ne_bit_self _, sqDist_self _⟩
    rw [hd]; exact and_not_one _

/-! ## The grouping of the sum -/

/-- The 8192 × 8192 terms added in the kernel's order — for each block of 256 rows and each lane l, over the 64 column
    groups and the block's rows — make the plain double sum. -/
theorem regroup {M : Type*} [AddCommMonoid M] (R : Fin 8192 → Fin 8192 → M) :
    ∑ b : Fin 32, ∑ l : Fin 128, ∑ k : Fin 64, ∑ p : Fin 256, R (row b.val p.val) (col k.val l.val)
      = ∑ i : Fin 8192, ∑ j : Fin 8192, R i j := by
  rw [Cert.Lib.SumChunks.sum_chunks 32 256 rfl (fun i => ∑ j : Fin 8192, R i j)]
  refine Finset.sum_congr rfl fun b _ => ?_
  have hrow : ∀ p : Fin 256, (⟨p.val + 256 * b.val, Cert.Lib.SumChunks.chunk_lt b p⟩ : Fin 8192) = row b.val p.val :=
    fun p => Fin.ext (row_val b.val p.val b.isLt p.isLt).symm
  have hcol : ∀ (k : Fin 64) (l : Fin 128), (⟨l.val + 128 * k.val, Cert.Lib.SumChunks.chunk_lt k l⟩ : Fin 8192) = col k.val l.val :=
    fun k l => Fin.ext (col_val k.val l.val k.isLt l.isLt).symm
  calc ∑ l : Fin 128, ∑ k : Fin 64, ∑ p : Fin 256, R (row b.val p.val) (col k.val l.val)
      = ∑ k : Fin 64, ∑ l : Fin 128, ∑ p : Fin 256, R (row b.val p.val) (col k.val l.val) := Finset.sum_comm
    _ = ∑ k : Fin 64, ∑ p : Fin 256, ∑ l : Fin 128, R (row b.val p.val) (col k.val l.val) :=
        Finset.sum_congr rfl fun k _ => Finset.sum_comm
    _ = ∑ p : Fin 256, ∑ k : Fin 64, ∑ l : Fin 128, R (row b.val p.val) (col k.val l.val) := Finset.sum_comm
    _ = ∑ p : Fin 256, ∑ j : Fin 8192, R ⟨p.val + 256 * b.val, Cert.Lib.SumChunks.chunk_lt b p⟩ j := by
        refine Finset.sum_congr rfl fun p _ => ?_
        rw [Cert.Lib.SumChunks.sum_chunks 64 128 rfl (fun j => R ⟨p.val + 256 * b.val, Cert.Lib.SumChunks.chunk_lt b p⟩ j), hrow]
        refine Finset.sum_congr rfl fun k _ => Finset.sum_congr rfl fun l _ => ?_
        rw [hcol]

/-- The result array's index set is blocks × lanes. -/
def idxEquiv : S32x1x128.Idx ≃ Fin 32 × Fin 128 where
  toFun i := (⟨(i 0).val, (i 0).isLt⟩, ⟨(i 2).val, (i 2).isLt⟩)
  invFun q := ix3 q.1 (0 : Fin 1) q.2
  left_inv i := funext fun a => Fin.ext (by
    match a with
    | ⟨0, _⟩ => rfl
    | ⟨1, _⟩ => show 0 = (i 1).val; have h : (i 1).val < 1 := (i 1).isLt; omega
    | ⟨2, _⟩ => rfl)
  right_inv _ := rfl

theorem sum_blocks_lanes {M : Type*} [AddCommMonoid M] (f : S32x1x128.Idx → M) :
    ∑ i, f i = ∑ b : Fin 32, ∑ l : Fin 128, f (ix3 b (0 : Fin 1) l) := by
  rw [← Equiv.sum_comp idxEquiv.symm f, Fintype.sum_prod_type]
  rfl

/-! ## The two results -/

/-- Over real entries the kernel's result is the reference's. -/
theorem loss_eq (x : FVec Ideal S8192x64 .f32) (lab : IVec S8192 32) (r : S8192x64.Idx → ℝ) (hx : ∀ idx, x idx = (r idx : EReal)) :
    lossOf (partials (augL x) (augR x) (shapeCast S8192x1 lab shapeCasts_S8192_S8192x1) (shapeCast S1x8192 lab shapeCasts_S8192_S1x8192))
      = Cert.ReferenceIdeal.Read.val_main_v43 (F := Ideal) x lab := by
  funext u
  rw [Cert.ReferenceIdeal.RefValue.ref_total]
  unfold lossOf
  show FloatOps.hostDivf (Host.reduceAdd (F := Ideal) _ (constant (F := Ideal) S_ .f32 0x00000000#32) reducesTo_S32x1x128_S_d0_1_2 h_S_ u)
      (Ideal.ofBits .f32 0x4C7FF800#32) = _
  refine congrArg (fun z => FloatOps.hostDivf z (Ideal.ofBits .f32 0x4C7FF800#32)) ?_
  simp only [Host.reduceAdd, Ideal.hostReduceAdd_def]
  rw [Ideal.hostReduceAdd_total reducesTo_S32x1x128_S_d0_1_2 (fun b => b.elim0) _ _ u]
  refine congrArg (Ideal.ofBits .f32 0x00000000#32 + ·) ?_
  rw [sum_blocks_lanes]
  unfold partials
  simp only [pair_eq x lab r hx]
  exact regroup (fun i j => refTerm x lab i j)

end Cert.Bridge

end
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.lean ====
/-
  The certificate of the pairwise contrastive loss: a kernel that fuses the whole chain into one launched region
  against the plain formula.

  Both programs compute  (Σ over ordered pairs (i, j) of 8192 rows of a pair term) / (8192 · 8191).  The kernel gets the
  squared distance of rows i and j as ONE inner product of two 128-wide augmented rows, (−2x_i, |x_i|², 1, 0…) against
  (x_j, 1, |x_j|², 0…); takes  max(d, 0)  where the labels agree and the squared hinge  max(1 − √max(d,0), 0)²  where they
  do not; and never masks the diagonal — a row's squared distance to itself is exactly zero over the reals, and a row
  agrees with itself in label, so the diagonal adds nothing.  The reference forms |x_i|² + |x_j|² − 2 x_i·x_j, masks the
  diagonal explicitly, and squares the square root again for agreeing labels.  For finite inputs these are the same
  terms (Proof/Bridge.lean); the kernel adds them block by block and lane by lane, the reference all at once.

  The frames: each kernel program runs to its end on every weakly fair schedule with its two arguments unchanged
  (Proof/KernelFrame.lean at the word level, Proof/KernelIdealFrame.lean for the idealized program; the body is run once
  on buffers of arbitrary contents and the launch does the rest).  The reference's frame is its run with the result
  dropped.  The idealization rewrote nothing, so there is nothing to preserve.
-/
import proofs.«143186_g56977036148935_feedfinal_177_9_alg».proof.Defs
import proofs.«143186_g56977036148935_feedfinal_177_9_alg».proof.Proof.Gen.Kernel
import proofs.«143186_g56977036148935_feedfinal_177_9_alg».proof.Proof.Gen.KernelIdeal
import proofs.«143186_g56977036148935_feedfinal_177_9_alg».proof.Proof.Gen.ReferenceIdeal
import proofs.«143186_g56977036148935_feedfinal_177_9_alg».proof.Proof.Gen.Pre_finite_inputs
import proofs.«143186_g56977036148935_feedfinal_177_9_alg».proof.Proof.KernelFrame
import proofs.«143186_g56977036148935_feedfinal_177_9_alg».proof.Proof.KernelIdealFrame
import proofs.«143186_g56977036148935_feedfinal_177_9_alg».proof.Proof.KernelResult
import proofs.«143186_g56977036148935_feedfinal_177_9_alg».proof.Proof.Bridge
import proofs.«143186_g56977036148935_feedfinal_177_9_alg».proof.Proof.LibFinite
import Idealize.ShloMosaic.Lib.ReduceAll
import Idealize.ShloMosaic.Adequacy
import Idealize.ShloMosaic.Init

set_option maxRecDepth 16384

noncomputable section

namespace Cert.Proof

open Idealize.ShloMosaic Idealize.ShloMosaic.TcCoe Idealize.SL.Sem

/-! ## Finite inputs are real -/

/-- Under the precondition every entry of the first argument is a real: the precondition is the conjunction over all
    entries of  |x| < +∞ . -/
theorem real_of_pre (m : (ℓ : Loc Cert.KernelIdeal.nD Cert.KernelIdeal.τ Cert.KernelIdeal.sig) → Buf (Elt Ideal) ℓ)
    (hpre : Cert.Pre_KernelIdeal m) (c : Dev Cert.KernelIdeal.nD) (idx : Cert.KernelIdeal.S8192x64.Idx) :
    ∃ r : ℝ, (m ((c.tc : Thread Cert.KernelIdeal.nD Cert.KernelIdeal.τ).loc Cert.KernelIdeal.main_arg0) : Cert.KernelIdeal.S8192x64.Idx → EReal) idx = (r : EReal) := by
  have h := congrFun (hpre c) ValueIdx.ix0
  dsimp only [Cert.Pre_finite_inputs.fn] at h
  have e := Host.reduce_andi_all _ _ _ _ _ h idx
  have hb : broadcastInDim Cert.Pre_finite_inputs.S8192x64 ![] Cert.Pre_finite_inputs.Facts.bcast_S_S8192x64
      (constant (F := Ideal) Cert.Pre_finite_inputs.S_ .f32 0x7F800000#32) idx = Ideal.ofBits .f32 0x7F800000#32 :=
    broadcastInDim_apply _ _ _ idx (fun a => a.elim0) (fun a => a.elim0)
  refine Cert.Lib.Finite.real_of_cmp _ ?_
  rw [← hb]
  exact e

/-! ## The claims -/

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result: the reference's own
    term of the arguments. -/
theorem algebraic : Cert.algebraic_KernelIdeal_ReferenceIdeal := by
  intro m ρ m' ρ' hpre hagree
  refine ⟨fun c => Cert.ReferenceIdeal.Read.val_main_v43 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩) (Cert.KernelIdeal.Result.run m ρ)
    choose r hr using real_of_pre m hpre c
    rw [Cert.KernelIdeal.EntryArrays.entry_augL, Cert.KernelIdeal.EntryArrays.entry_augR,
      Cert.KernelIdeal.EntryArrays.entry_labCol, Cert.KernelIdeal.EntryArrays.entry_labRow]
    exact Cert.Bridge.loss_eq _ _ r hr
  · refine (θ_run Cert.ReferenceIdeal.defs _ _).mono (fun _ h c => ⟨?_, (h c).2⟩) (Cert.ReferenceIdeal.Value.run (F := Ideal) m' ρ')
    rw [(h c).1, Cert.ReferenceIdeal.Read.val_main_v43_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
